-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4x128 : Shape := ⟨3, ![50000, 4, 128]⟩
abbrev S2x400000 : Shape := ⟨2, ![2, 400000]⟩
abbrev S400000 : Shape := ⟨1, ![400000]⟩
abbrev S2048x64 : Shape := ⟨2, ![2048, 64]⟩
abbrev S128x128 : Shape := ⟨2, ![128, 128]⟩
abbrev S_ : Shape := ⟨0, ![]⟩

class Facts : Prop where
  bcast_S_S50000x4x128 : S_.BroadcastsInDim S50000x4x128 (![] : Fin 0 → Fin S50000x4x128.rank)
  reducesTo_S50000x4x128_S_d0_1_2 : S50000x4x128.ReducesTo [0, 1, 2] S_
  h_S_ : 0 < S_.numel
  bcast_S_S400000 : S_.BroadcastsInDim S400000 (![] : Fin 0 → Fin S400000.rank)
  reducesTo_S400000_S_d0 : S400000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x4x128 .f32) (main_arg1 : IVec S2x400000 32) (main_arg2 : FVec F S400000 .f32) (main_arg3 : IVec S2048x64 32) (main_arg4 : FVec F S128x128 .f32) : IVec S_ 1 :=
  let main_v0 : FVec F S50000x4x128 .f32 := Host.absf main_arg0
  let main_cst : FVec F S_ .f32 := constant S_ .f32 0x7F800000#32
  let main_v1 : FVec F S50000x4x128 .f32 := broadcastInDim S50000x4x128 ![] bcast_S_S50000x4x128 main_cst
  let main_v2 : IVec S50000x4x128 1 := cmpf .olt main_v0 main_v1
  let main_c : IVec S_ 1 := constantI S_ 1 1#1
  let main_v3 : IVec S_ 1 := (fun x v => Host.reduce IntOp.andi x v reducesTo_S50000x4x128_S_d0_1_2 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S50000x4x128 : Shape := ⟨3, ![50000, 4, 128]⟩
abbrev S2x400000 : Shape := ⟨2, ![2, 400000]⟩
abbrev S400000 : Shape := ⟨1, ![400000]⟩
abbrev S2048x64 : Shape := ⟨2, ![2048, 64]⟩
abbrev S128x128 : Shape := ⟨2, ![128, 128]⟩
abbrev S50000x128 : Shape := ⟨2, ![50000, 128]⟩
abbrev S2000x4x128 : Shape := ⟨3, ![2000, 4, 128]⟩
abbrev S2000x128 : Shape := ⟨2, ![2000, 128]⟩
abbrev S1x400000 : Shape := ⟨2, ![1, 400000]⟩
abbrev S_ : Shape := ⟨0, ![]⟩
abbrev S400000x1 : Shape := ⟨2, ![400000, 1]⟩
abbrev S400000x128 : Shape := ⟨2, ![400000, 128]⟩
abbrev S2048x64x1 : Shape := ⟨3, ![2048, 64, 1]⟩
abbrev S2048x64x128 : Shape := ⟨3, ![2048, 64, 128]⟩
abbrev S2048x128 : Shape := ⟨2, ![2048, 128]⟩

abbrev nBuf : Space → Nat
  | .hbm => 48
  | .vmem => 5
  | .smem => 0
  | _ => 0

abbrev bufTy : (tb : Table) → Fin (tcTables nBuf tb) → BufTy
  | .hbm, ⟨0, _⟩ => ⟨S50000x4x128, .f32⟩
  | .hbm, ⟨1, _⟩ => ⟨S2x400000, .i32⟩
  | .hbm, ⟨2, _⟩ => ⟨S400000, .f32⟩
  | .hbm, ⟨3, _⟩ => ⟨S2048x64, .i32⟩
  | .hbm, ⟨4, _⟩ => ⟨S128x128, .f32⟩
  | .hbm, ⟨5, _⟩ => ⟨S50000x128, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x128, .f32⟩
  | .hbm, ⟨19, _⟩ => ⟨S400000x1, .f32⟩
  | .hbm, ⟨20, _⟩ => ⟨S400000x128, .f32⟩
  | .hbm, ⟨21, _⟩ => ⟨S400000x128, .f32⟩
  | .hbm, ⟨22, _⟩ => ⟨S_, .f32⟩
  | .hbm, ⟨23, _⟩ => ⟨S50000x128, .f32⟩
  | .hbm, ⟨24, _⟩ => ⟨S400000x1, .i32⟩
  | .hbm, ⟨25, _⟩ => ⟨S50000x128, .f32⟩
  | .hbm, ⟨26, _⟩ => ⟨S_, .i32⟩
  | .hbm, ⟨27, _⟩ => ⟨S2048x64, .i32⟩
  | .hbm, ⟨28, _⟩ => ⟨S2048x64, .i1⟩
  | .hbm, ⟨29, _⟩ => ⟨S_, .i32⟩
  | .hbm, ⟨30, _⟩ => ⟨S_, .i32⟩
  | .hbm, ⟨31, _⟩ => ⟨S2048x64, .i32⟩
  | .hbm, ⟨32, _⟩ => ⟨S2048x64, .i32⟩
  | .hbm, ⟨33, _⟩ => ⟨S_, .i32⟩
  | .hbm, ⟨34, _⟩ => ⟨S2048x64, .i32⟩
  | .hbm, ⟨35, _⟩ => ⟨S2048x64, .i1⟩
  | .hbm, ⟨36, _⟩ => ⟨S_, .i32⟩
  | .hbm, ⟨37, _⟩ => ⟨S2048x64, .i32⟩
  | .hbm, ⟨38, _⟩ => ⟨S2048x64, .i32⟩
  | .hbm, ⟨39, _⟩ => ⟨S2048x64, .i32⟩
  | .hbm, ⟨40, _⟩ => ⟨S2048x64x1, .i32⟩
  | .hbm, ⟨41, _⟩ => ⟨S2048x64x128, .f32⟩
  | .hbm, ⟨42, _⟩ => ⟨S2048x64x1, .i1⟩
  | .hbm, ⟨43, _⟩ => ⟨S2048x64x1, .f32⟩
  | .hbm, ⟨44, _⟩ => ⟨S2048x64x128, .f32⟩
  | .hbm, ⟨45, _⟩ => ⟨S2048x64x128, .f32⟩
  | .hbm, ⟨46, _⟩ => ⟨S_, .f32⟩
  | .hbm, ⟨47, _⟩ => ⟨S2048x128, .f32⟩
  | .local _ .vmem, ⟨0, _⟩ => ⟨S2000x4x128, .f32⟩
  | .local _ .vmem, ⟨1, _⟩ => ⟨S2000x4x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | _, _ => ⟨S50000x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x4x128_S2000x4x128_0_0_0 : ∀ a, (![0, 0, 0] : Fin 3 → Nat) a + S2000x4x128.size a ≤ S2000x4x128.size a
  h_S2000x4x128 : 0 < S2000x4x128.numel
  reduces_S2000x4x128_S2000x128 : S2000x4x128.Reduces [1] S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  bcast_S2048x64x1_S2048x64x128_0_1_2 : S2048x64x1.BroadcastsInDim S2048x64x128 (![0, 1, 2] : Fin 3 → Fin S2048x64x128.rank)
  reducesTo_S2048x64x128_S2048x128_d1 : S2048x64x128.ReducesTo [1] S2048x128
  h_S_ : 0 < S_.numel
  dot_S2000x128_S128x128_S2000x128_1_0_0_1_n_n_wf : DotDims.WF S2000x128 S128x128 S2000x128 [1] [0] [0] [1] [] []
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  gather_S50000x128_S2048x64x1_S2048x64x128_2_0_n_n_0_2_1128_wf : GatherDims.WF S50000x128 S2048x64x1 S2048x64x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4x128.size a ≤ S50000x4x128.size a
  hwx0_0 : ∀ i : grid0.Coords, EltTy.bits .f32 = 32 ∨ (Rect.block (s := S50000x4x128) S2000x4x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S2048x64x1_S2048x64x128_2_0_n_n_0_2_1128 : GatherDims S50000x128 S2048x64x1 S2048x64x128 where
  offsetDims := [2]
  collapsedSliceDims := [0]
  operandBatchingDims := []
  startIndicesBatchingDims := []
  startIndexMap := [0]
  indexVectorDim := 2
  sliceSizes := ![1, 128]
  wf := gather_S50000x128_S2048x64x1_S2048x64x128_2_0_n_n_0_2_1128_wf

abbrev win0_0 : Pipeline.Window sig grid0 :=
  Pipeline.Window.ofSpec (Memref.whole main_arg0) S2000x4x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x4x128 : Shape := ⟨3, ![50000, 4, 128]⟩
abbrev S2x400000 : Shape := ⟨2, ![2, 400000]⟩
abbrev S400000 : Shape := ⟨1, ![400000]⟩
abbrev S2048x64 : Shape := ⟨2, ![2048, 64]⟩
abbrev S128x128 : Shape := ⟨2, ![128, 128]⟩
abbrev S1x400000 : Shape := ⟨2, ![1, 400000]⟩
abbrev S_ : Shape := ⟨0, ![]⟩
abbrev S400000x1 : Shape := ⟨2, ![400000, 1]⟩
abbrev S400000x4x128 : Shape := ⟨3, ![400000, 4, 128]⟩
abbrev S400000x1x1 : Shape := ⟨3, ![400000, 1, 1]⟩
abbrev S50000x128 : Shape := ⟨2, ![50000, 128]⟩
abbrev S2048x64x1 : Shape := ⟨3, ![2048, 64, 1]⟩
abbrev S2048x64x128 : Shape := ⟨3, ![2048, 64, 128]⟩
abbrev S2048x128 : Shape := ⟨2, ![2048, 128]⟩

abbrev nBuf : Space → Nat
  | .hbm => 53
  | .vmem => 0
  | .smem => 0
  | _ => 0

abbrev bufTy : (tb : Table) → Fin (tcTables nBuf tb) → BufTy
  | .hbm, ⟨0, _⟩ => ⟨S50000x4x128, .f32⟩
  | .hbm, ⟨1, _⟩ => ⟨S2x400000, .i32⟩
  | .hbm, ⟨2, _⟩ => ⟨S400000, .f32⟩
  | .hbm, ⟨3, _⟩ => ⟨S2048x64, .i32⟩
  | .hbm, ⟨4, _⟩ => ⟨S128x128, .f32⟩
  | .hbm, ⟨5, _⟩ => ⟨S1x400000, .i32⟩
  | .hbm, ⟨6, _⟩ => ⟨S400000, .i32⟩
  | .hbm, ⟨7, _⟩ => ⟨S1x400000, .i32⟩
  | .hbm, ⟨8, _⟩ => ⟨S400000, .i32⟩
  | .hbm, ⟨9, _⟩ => ⟨S50000x4x128, .f32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x4x128, .f32⟩
  | .hbm, ⟨19, _⟩ => ⟨S400000x1x1, .f32⟩
  | .hbm, ⟨20, _⟩ => ⟨S400000x4x128, .f32⟩
  | .hbm, ⟨21, _⟩ => ⟨S400000x4x128, .f32⟩
  | .hbm, ⟨22, _⟩ => ⟨S_, .f32⟩
  | .hbm, ⟨23, _⟩ => ⟨S50000x4x128, .f32⟩
  | .hbm, ⟨24, _⟩ => ⟨S400000x1, .i32⟩
  | .hbm, ⟨25, _⟩ => ⟨S50000x4x128, .f32⟩
  | .hbm, ⟨26, _⟩ => ⟨S_, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S2048x64, .i32⟩
  | .hbm, ⟨33, _⟩ => ⟨S2048x64, .i1⟩
  | .hbm, ⟨34, _⟩ => ⟨S_, .i32⟩
  | .hbm, ⟨35, _⟩ => ⟨S_, .i32⟩
  | .hbm, ⟨36, _⟩ => ⟨S2048x64, .i32⟩
  | .hbm, ⟨37, _⟩ => ⟨S2048x64, .i32⟩
  | .hbm, ⟨38, _⟩ => ⟨S_, .i32⟩
  | .hbm, ⟨39, _⟩ => ⟨S2048x64, .i32⟩
  | .hbm, ⟨40, _⟩ => ⟨S2048x64, .i1⟩
  | .hbm, ⟨41, _⟩ => ⟨S_, .i32⟩
  | .hbm, ⟨42, _⟩ => ⟨S2048x64, .i32⟩
  | .hbm, ⟨43, _⟩ => ⟨S2048x64, .i32⟩
  | .hbm, ⟨44, _⟩ => ⟨S2048x64, .i32⟩
  | .hbm, ⟨45, _⟩ => ⟨S2048x64x1, .i32⟩
  | .hbm, ⟨46, _⟩ => ⟨S2048x64x128, .f32⟩
  | .hbm, ⟨47, _⟩ => ⟨S2048x64x1, .i1⟩
  | .hbm, ⟨48, _⟩ => ⟨S2048x64x1, .f32⟩
  | .hbm, ⟨49, _⟩ => ⟨S2048x64x128, .f32⟩
  | .hbm, ⟨50, _⟩ => ⟨S2048x64x128, .f32⟩
  | .hbm, ⟨51, _⟩ => ⟨S_, .f32⟩
  | .hbm, ⟨52, _⟩ => ⟨S2048x128, .f32⟩
  | _, _ => ⟨S50000x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S400000_S400000x1x1_0 : S400000.BroadcastsInDim S400000x1x1 (![0] : Fin 1 → Fin S400000x1x1.rank)
  bcast_S400000x1x1_S400000x4x128_0_1_2 : S400000x1x1.BroadcastsInDim S400000x4x128 (![0, 1, 2] : Fin 3 → Fin S400000x4x128.rank)
  bcast_S_S50000x4x128 : S_.BroadcastsInDim S50000x4x128 (![] : Fin 0 → Fin S50000x4x128.rank)
  reducesTo_S50000x4x128_S50000x128_d1 : S50000x4x128.ReducesTo [1] S50000x128
  h_S_ : 0 < S_.numel
  bcast_S_S50000x128 : S_.BroadcastsInDim S50000x128 (![] : Fin 0 → Fin S50000x128.rank)
  bcast_S_S2048x64 : S_.BroadcastsInDim S2048x64 (![] : Fin 0 → Fin S2048x64.rank)
  bcast_S2048x64_S2048x64x1_0_1 : S2048x64.BroadcastsInDim S2048x64x1 (![0, 1] : Fin 2 → Fin S2048x64x1.rank)
  bcast_S2048x64x1_S2048x64x128_0_1_2 : S2048x64x1.BroadcastsInDim S2048x64x128 (![0, 1, 2] : Fin 3 → Fin S2048x64x128.rank)
  reducesTo_S2048x64x128_S2048x128_d1 : S2048x64x128.ReducesTo [1] S2048x128
  dot_S50000x4x128_S128x128_S50000x4x128_2_0_01_1_n_n_wf : DotDims.WF S50000x4x128 S128x128 S50000x4x128 [2] [0] [0, 1] [1] [] []
  gather_S50000x4x128_S400000x1_S400000x4x128_12_0_n_n_0_1_14128_wf : GatherDims.WF S50000x4x128 S400000x1 S400000x4x128 [1, 2] [0] [] [0] [] 1 ![1, 4, 128]
  scatter_S50000x4x128_S400000x1_S400000x4x128_12_0_0_1_wf : ScatterDims.WF S50000x4x128 S400000x1 S400000x4x128 [1, 2] [0] [0] 1
  gather_S50000x128_S2048x64x1_S2048x64x128_2_0_n_n_0_2_1128_wf : GatherDims.WF S50000x128 S2048x64x1 S2048x64x128 [2] [0] [] [0] [] 2 ![1, 128]

variable [Facts₀]

def dot_S50000x4x128_S128x128_S50000x4x128_2_0_01_1_n_n : DotDims S50000x4x128 S128x128 S50000x4x128 where
  lhsContracting := [2]
  rhsContracting := [0]
  lhsNonContracting := [0, 1]
  rhsNonContracting := [1]
  lhsBatch := []
  rhsBatch := []
  wf := dot_S50000x4x128_S128x128_S50000x4x128_2_0_01_1_n_n_wf
def gather_S50000x4x128_S400000x1_S400000x4x128_12_0_n_n_0_1_14128 : GatherDims S50000x4x128 S400000x1 S400000x4x128 where
  offsetDims := [1, 2]
  collapsedSliceDims := [0]
  operandBatchingDims := []
  startIndicesBatchingDims := []
  startIndexMap := [0]
  indexVectorDim := 1
  sliceSizes := ![1, 4, 128]
  wf := gather_S50000x4x128_S400000x1_S400000x4x128_12_0_n_n_0_1_14128_wf
def scatter_S50000x4x128_S400000x1_S400000x4x128_12_0_0_1 : ScatterDims S50000x4x128 S400000x1 S400000x4x128 where
  updateWindowDims := [1, 2]
  insertedWindowDims := [0]
  scatterDimsToOperandDims := [0]
  indexVectorDim := 1
  wf := scatter_S50000x4x128_S400000x1_S400000x4x128_12_0_0_1_wf
def gather_S50000x128_S2048x64x1_S2048x64x128_2_0_n_n_0_2_1128 : GatherDims S50000x128 S2048x64x1 S2048x64x128 where
  offsetDims := [2]
  collapsedSliceDims := [0]
  operandBatchingDims := []
  startIndicesBatchingDims := []
  startIndexMap := [0]
  indexVectorDim := 2
  sliceSizes := ![1, 128]
  wf := gather_S50000x128_S2048x64x1_S2048x64x128_2_0_n_n_0_2_1128_wf

class Facts : Prop extends Facts₀ where

variable [Facts]
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.KernelBody.lean ====
/-
  The kernel body's one store, read at a coordinate.

  The body loads a block of the node features, x : [2000, 4, 128], and the whole weight matrix W : [128, 128], averages x
  over its channel axis (sum over the 4 channels, divided by 4) and multiplies the averaged block by W into a zero
  accumulator. Read at row p and column q of the stored block this is
      Σ_k ((Σ_c x(p, c, k)) / 4) · W(k, q),
  the changes of float format in between being the identity on the extended reals.
-/
import proofs.«138304_j68032281968990_2_alg».proof.Proof.Gen.KernelIdeal.Skeleton
import proofs.«138304_j68032281968990_2_alg».proof.Proof.LibPlainMatmul
import Idealize.ShloMosaic.Lib.ValueIdx
import Idealize.ShloMosaic.PureOps.Ideal.Laws

noncomputable section

open scoped BigOperators
open Idealize.ShloMosaic Idealize.ShloMosaic.ValueIdx Idealize.ShloMosaic.TcCoe Idealize.SL.Sem

namespace Cert.Bridge.Body

open Cert.KernelIdeal Cert.KernelIdeal.Gen

/-- A sum over the middle axis of a rank-3 array from the neutral accumulator, read at (p, d): the sum over the
    middle coordinate c of the array at (p, c, d). -/
theorem midSum_apply {A C D : ℕ} (src : FVec Ideal ⟨3, ![A, C, D]⟩ .f32) (acc : BitVec 32)
    (h : (⟨3, ![A, C, D]⟩ : Shape).Reduces [1] ⟨2, ![A, D]⟩) (hφ : FKind.Formats .f32) (hacc : acc = FKind.add.neutral .f32 hφ)
    (p : Fin A) (d : Fin D) :
    multiReduction .add [1] ⟨2, ![A, D]⟩ src acc h hφ hacc (ix2 p d) = ∑ c : Fin C, src (ix3 p c d) :=
  (Ideal.multiReduction_add_single src acc h hφ hacc (ix2 p d)).trans
    (Finset.sum_congr rfl fun k _ => congrArg src (funext fun a => Fin.ext (by
      match a with
      | ⟨0, _⟩ => rfl
      | ⟨1, _⟩ => rfl
      | ⟨2, _⟩ => rfl)))

/-- The stored block at (p, q): the channel mean of the loaded block, row p, against column q of the loaded weights. -/
theorem pay_apply (v0 : Vec Ideal S2000x4x128 .f32) (v5 : Vec Ideal S128x128 .f32) (p : Fin 2000) (q : Fin 128) :
    k0_pay1 (F := Ideal) v0 v5 (ix2 p q)
      = ∑ k : Fin 128, Ideal.div (∑ c : Fin 4, v0 (ix3 p c k)) (Ideal.ofBits .f32 0x40800000#32) * v5 (ix2 k q) := by
  unfold k0_pay1
  refine (Cert.Lib.PlainMatmul.plain_matmul_zero_apply _ _ p q).trans ?_
  refine Finset.sum_congr rfl fun k _ => ?_
  rw [truncf_apply, truncf_apply, divf_apply, broadcast_apply]
  exact congrArg (fun z => Ideal.div z (Ideal.ofBits .f32 0x40800000#32) * v5 (ix2 k q)) (midSum_apply v0 _ _ _ _ p k)

end Cert.Bridge.Body

end
-- ==== Proof.Spec.lean ====
/-
  The kernel's matrix stage as one function of whole arrays.

  For node features x : [50000, 4, 128] and weights W : [128, 128], the stage first averages x over its channel axis and
  then multiplies by W:  convMean x W (n, e) = Σ_k ((Σ_c x(n, c, k)) / 4) · W(k, e).
  The divisor is kept as the float word of 4.0 read on the extended reals; it is evaluated only where the two programs
  are compared.
-/
import Idealize.ShloMosaic.PureOps.Ideal
import Idealize.ShloMosaic.Lib.ValueIdx

noncomputable section

open scoped BigOperators
open Idealize.ShloMosaic Idealize.ShloMosaic.ValueIdx Idealize.ShloMosaic.TcCoe Idealize.SL.Sem

namespace Cert.Bridge

/-- The channel mean followed by the weight product, at node n = i 0 and output feature e = i 1. -/
def convMean (x : (⟨3, ![50000, 4, 128]⟩ : Shape).Idx → EReal) (W : (⟨2, ![128, 128]⟩ : Shape).Idx → EReal) :
    (⟨2, ![50000, 128]⟩ : Shape).Idx → EReal := fun i =>
  ∑ k : Fin 128, Ideal.div (∑ c : Fin 4, x (ix3 (n0 := 50000) (i 0) c k)) (Ideal.ofBits .f32 0x40800000#32)
    * W (ix2 (n1 := 128) k (i 1))

end Cert.Bridge

end
-- ==== Proof.KernelArray.lean ====
/-
  The region's output array after the run.

  The grid has 25 points; point t loads rows [2000 t, 2000 t + 2000) of the node features (all channels, all columns) and
  the whole weight matrix, and writes back rows [2000 t, 2000 t + 2000) of the output. Each written block is the
  restriction of one whole-array function, the channel mean followed by the weight product, and the 25 blocks tile
  the [50000, 128] output, so the output array ends holding that function of the two argument arrays.
-/
import proofs.«138304_j68032281968990_2_alg».proof.Proof.Gen.KernelIdeal.Frame
import proofs.«138304_j68032281968990_2_alg».proof.Proof.KernelBody
import proofs.«138304_j68032281968990_2_alg».proof.Proof.Spec
import Idealize.ShloMosaic.Lib.Pipeline.Value

noncomputable section

open scoped BigOperators
open Idealize.ShloMosaic Idealize.ShloMosaic.ValueIdx Idealize.ShloMosaic.TcCoe Idealize.SL.Sem

namespace Cert.Bridge.KArr

open Cert.KernelIdeal Cert.KernelIdeal.Gen Cert.Bridge
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block of a point from the loaded blocks, against the whole-array function: if the loaded feature block
    is rows of X starting where row (j 0) of the block is row (i 0) of X, and the loaded weights are W, then the
    block's element at j is the function's at i. -/
theorem block_eq (x0 : Vec Ideal S2000x4x128 .f32) (x1 : Vec Ideal S128x128 .f32)
    (X : S50000x4x128.Idx → EReal) (Wt : S128x128.Idx → EReal) (j : S2000x128.Idx) (i : S50000x128.Idx)
    (h0 : ∀ (cc : Fin 4) (k : Fin 128), x0 (ix3 (j 0) cc k) = X (ix3 (i 0) cc k))
    (h1 : ∀ k : Fin 128, x1 (ix2 k (j 1)) = Wt (ix2 k (i 1))) :
    k0_pay1 (F := Ideal) x0 x1 j = convMean X Wt i := by
  obtain ⟨p, q, rfl⟩ : ∃ (p : Fin 2000) (q : Fin 128), j = ix2 p q := ⟨j 0, j 1, eq_ix2 j⟩
  refine (Cert.Bridge.Body.pay_apply x0 x1 p q).trans ?_
  unfold convMean
  refine Finset.sum_congr rfl fun k _ => ?_
  rw [h1 k]
  refine congrArg (fun z => Ideal.div z _ * _) ?_
  exact Finset.sum_congr rfl fun cc _ => h0 cc k

/-- The printed index maps over the grid: the feature window and the output window move together along rows, point t at
    block t; every other block coordinate is 0. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array function of the argument arrays. -/
theorem flushed_eq (c : Dev nD) (t : Fin cfg0.N) :
    (dats m 0 c).flushed 2 t
      = ((cfg0.win 2).blk t).view.read (Elt Ideal) (convMean (V m c main_arg0) (V m c main_arg4)) := by
  show (cfg0.win 2).cut (grid0.coords t) ((dats m 0 c).after 2 t) = _
  rw [after0_2]
  unfold out0_2
  rw [View.canon_unit_zero hz2]
  simp only [View.ld_unit_zero (S := S2000x4x128) hz3, View.ld_unit_zero (S := S128x128) hz2]
  obtain ⟨e0, e1, e2, e3, e4, e5, e6⟩ := idx_facts t
  funext j
  show k0_pay1 (F := Ideal) (iblk m c 0 t) (iblk m c 1 t) j
    = convMean (V m c main_arg0) (V m c main_arg4) (((cfg0.win 2).blk t).view.emb j)
  refine block_eq (iblk m c 0 t) (iblk m c 1 t) _ _ j _ ?_ ?_
  · intro cc k
    show V m c main_arg0 (((cfg0.win 0).blk t).view.emb (ix3 (j 0) cc k)) = V m c main_arg0 _
    refine congrArg (V m c main_arg0) (funext fun a => Fin.ext ?_)
    match a with
    | ⟨0, _⟩ => show win0_0.index t (0 : Fin 3) * 2000 + 1 * (j 0).val = win0_2.index t (0 : Fin 2) * 2000 + 1 * (j 0).val; omega
    | ⟨1, _⟩ => show win0_0.index t (1 : Fin 3) * 4 + 1 * cc.val = cc.val; omega
    | ⟨2, _⟩ => show win0_0.index t (2 : Fin 3) * 128 + 1 * k.val = k.val; omega
  · intro k
    show V m c main_arg4 (((cfg0.win 1).blk t).view.emb (ix2 k (j 1))) = V m c main_arg4 _
    refine congrArg (V m c main_arg4) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Every row block is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- The 25 written blocks cover the output array: row r lies in the block of point r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the run: the channel mean of the node features times the weights. -/
theorem final (c : Dev nD) :
    (dats m 0 c).arrAt 2 cfg0.N
      = convMean (m ((c : Thread nD τ).loc main_arg0)) (m ((c : Thread nD τ).loc main_arg4)) :=
  (dats m 0 c).arrAt_eq_of_cover 2 (convMean (V m c main_arg0) (V m c main_arg4)) (fun t _ => flushed_eq m c t) cover

end Cert.Bridge.KArr

end
-- ==== Proof.KernelTail.lean ====
/-
  The kernel program's host operations after the region, as named stages.

  After the region has left h = (channel mean of x) · W in its output array, the program
    * reads the source and destination rows of the edge list (a negative source index is shifted by the node count),
    * gathers h at the source nodes and scales row j by the edge weight w_j (the messages),
    * adds every message into its destination node's row of a zero array (the node embedding),
    * gathers the embedding at the members of each subgraph (a negative member index is padding: it is replaced by 0
      and masked out) and sums the masked rows over the members.
  The program's result buffer ends holding exactly this composition.
-/
import proofs.«138304_j68032281968990_2_alg».proof.Proof.Gen.KernelIdeal.Frame
import proofs.«138304_j68032281968990_2_alg».proof.Proof.KernelArray
import Idealize.ShloMosaic.Lib.StableHlo.Run

noncomputable section

open scoped BigOperators
open Idealize.ShloMosaic Idealize.ShloMosaic.ValueIdx Idealize.ShloMosaic.TcCoe Idealize.SL.Sem

namespace Cert.Bridge.KTail

open Cert.KernelIdeal Cert.KernelIdeal.Gen Cert.Bridge Idealize.ShloMosaic.StableHlo
open Idealize.ShloMosaic.Pipeline (Dat)

/-- Row r of the edge list as a vector of signed index words. -/
def src0 (x1 : IVec S2x400000 32) : IVec S400000 32 :=
  shapeCast S400000 (extractStridedSlice S1x400000 ![0, 0] x1 slices_S2x400000_S1x400000_0_0) shapeCasts_S1x400000_S400000
def dst0 (x1 : IVec S2x400000 32) : IVec S400000 32 :=
  shapeCast S400000 (extractStridedSlice S1x400000 ![1, 0] x1 slices_S2x400000_S1x400000_1_0) shapeCasts_S1x400000_S400000

/-- The source rows as start indices [E, 1]: a negative index is shifted by the node count. -/
def srcIdx (x1 : IVec S2x400000 32) : IVec S400000x1 32 :=
  broadcastInDim S400000x1 ![0] bcast_S400000_S400000x1_0
    (select (cmpi .slt (src0 x1) (broadcastInDim S400000 ![] bcast_S_S400000 (constantI S_ 32 0#32)))
      (addi (src0 x1) (broadcastInDim S400000 ![] bcast_S_S400000 (constantI S_ 32 50000#32))) (src0 x1))

/-- The destination rows as scatter indices [E, 1], as given. -/
def dstIdx (x1 : IVec S2x400000 32) : IVec S400000x1 32 :=
  broadcastInDim S400000x1 ![0] bcast_S400000_S400000x1_0 (dst0 x1)

/-- The messages: row j is h at edge j's source node, scaled by the edge's weight. -/
def msg (h : FVec Ideal S50000x128 .f32) (x1 : IVec S2x400000 32) (x2 : FVec Ideal S400000 .f32) : FVec Ideal S400000x128 .f32 :=
  mulf (Host.gather gather_S50000x128_S400000x1_S400000x128_1_0_n_n_0_1_1128 h (srcIdx x1))
    (broadcastInDim S400000x128 ![0, 1] bcast_S400000x1_S400000x128_0_1 (broadcastInDim S400000x1 ![0] bcast_S400000_S400000x1_0 x2))

/-- The node embedding: every message added into its destination row of a zero array. -/
def emb (h : FVec Ideal S50000x128 .f32) (x1 : IVec S2x400000 32) (x2 : FVec Ideal S400000 .f32) : FVec Ideal S50000x128 .f32 :=
  Host.scatterAdd scatter_S50000x128_S400000x1_S400000x128_1_0_0_1
    (broadcastInDim S50000x128 ![] bcast_S_S50000x128 (constant S_ .f32 0x00000000#32)) (dstIdx x1) (msg h x1 x2)

/-- The subgraph members with padding replaced by node 0. -/
def member (x3 : IVec S2048x64 32) : IVec S2048x64 32 :=
  select (cmpi .sge x3 (broadcastInDim S2048x64 ![] bcast_S_S2048x64 (constantI S_ 32 0#32))) x3
    (broadcastInDim S2048x64 ![] bcast_S_S2048x64 (constantI S_ 32 0#32))

/-- The members as start indices [S, M, 1] (a negative index shifted by the node count). -/
def memberIdx (x3 : IVec S2048x64 32) : IVec S2048x64x1 32 :=
  broadcastInDim S2048x64x1 ![0, 1] bcast_S2048x64_S2048x64x1_0_1
    (select (cmpi .slt (member x3) (broadcastInDim S2048x64 ![] bcast_S_S2048x64 (constantI S_ 32 0#32)))
      (addi (member x3) (broadcastInDim S2048x64 ![] bcast_S_S2048x64 (constantI S_ 32 50000#32))) (member x3))

/-- The padding mask as a 0/1 factor, broadcast along the feature axis. -/
def maskF (x3 : IVec S2048x64 32) : FVec Ideal S2048x64x128 .f32 :=
  broadcastInDim S2048x64x128 ![0, 1, 2] bcast_S2048x64x1_S2048x64x128_0_1_2
    (uitofp .f32 (broadcastInDim S2048x64x1 ![0, 1] bcast_S2048x64_S2048x64x1_0_1
      (cmpi .sge x3 (broadcastInDim S2048x64 ![] bcast_S_S2048x64 (constantI S_ 32 0#32)))))

/-- The pooled result: the masked embedding rows of each subgraph's members, summed over the members. -/
def pool (e : FVec Ideal S50000x128 .f32) (x3 : IVec S2048x64 32) : FVec Ideal S2048x128 .f32 :=
  Host.reduceAdd (mulf (Host.gather gather_S50000x128_S2048x64x1_S2048x64x128_2_0_n_n_0_2_1128 e (memberIdx x3)) (maskF x3))
    (constant S_ .f32 0x00000000#32) reducesTo_S2048x64x128_S2048x128_d1 h_S_

variable (m : (ℓ : Loc nD τ sig) → Buf (Elt Ideal) ℓ)

set_option maxRecDepth 8192 in
set_option maxHeartbeats 2000000 in
/-- What the program's result buffer holds after the run: the pooled embedding, over the region's output read as the
    channel-mean product of the argument arrays. -/
theorem tail_eq (c : Dev nD) :
    Pipeline.afterTail₀ cfgs (dats m) 0 (V0 m) [hostOps1, hostOps1_1, hostOps1_2] c main_v32
      = pool (emb (convMean (m ((c : Thread nD τ).loc main_arg0)) (m ((c : Thread nD τ).loc main_arg4)))
          (m ((c : Thread nD τ).loc main_arg1)) (m ((c : Thread nD τ).loc main_arg2))) (m ((c : Thread nD τ).loc main_arg3)) := by
  have e0 : Pipeline.withArrays (cfgs 0).spec c (V0 m c) (fun w => (dats m 0 c).arrAt w (cfgs 0).N) (Proc.devRef .tc main_v0)
      = convMean (m ((c : Thread nD τ).loc main_arg0)) (m ((c : Thread nD τ).loc main_arg4)) :=
    (Pipeline.withArrays_arr spec0 launch0.win.arr_inj c _ _ 2).trans (Cert.Bridge.KArr.final m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  simp only [hostOps1, hostOps1_1, hostOps1_2, List.flatten_cons, List.flatten_nil, List.append_nil, List.cons_append, List.nil_append]
  after_results_simp
  rw [e0, e1, e2, e3]
  rfl

end Cert.Bridge.KTail

end
-- ==== Proof.LibRowScatter.lean ====
/-
  Row gathers and row scatters read at coordinates.

  A table of `N` rows (each a vector of `D` entries, or a `C × D` block) is gathered at `E` row numbers, or has
  `E` update rows added into it at `E` row numbers. The row numbers are an array of shape `[E, 1]`: the index
  vector lies along axis 1 and has the single component that names axis 0 of the table; every other axis of the table is
  taken whole. For such dimension numbers the gather reads row `clamp(idx[j, 0])` of the table, and the accumulating
  scatter adds to entry `(n, e)` of the table the entries `(j, e)` of all update rows `j` whose row number
  `idx[j, 0]`, read as a signed integer, is exactly `n` (a row number outside `[0, N)` names no row: the update is dropped).
-/
import Idealize.ShloMosaic.Lib.ValueIdx
import Idealize.ShloMosaic.PureOps.Contract
import Mathlib.Algebra.BigOperators.Fin

noncomputable section

open scoped BigOperators

namespace Cert.Lib.RowScatter

open Idealize.ShloMosaic Idealize.ShloMosaic.ValueIdx

/-! ## Scatter into a table of vectors: operand `[N, D]`, row numbers `[E, 1]`, updates `[E, D]` -/

section S2
variable {N D E w : Nat}

/-- The row-number array is read at `[j₀, 0]`: the update's row coordinate, and the one component of the index vector. -/
theorem siIdx2 (d : ScatterDims ⟨2, ![N, D]⟩ ⟨2, ![E, 1]⟩ ⟨2, ![E, D]⟩)
    (hu : d.updateWindowDims = [1]) (hv : d.indexVectorDim = 1)
    (j : (⟨2, ![E, D]⟩ : Shape).Idx) (c : Fin d.scatterDimsToOperandDims.length) :
    d.siIdx j c = ix2 (j 0) 0 := by
  obtain ⟨uw, iw, sd, iv, wf⟩ := d
  obtain rfl : uw = [1] := hu
  obtain rfl : iv = 1 := hv
  funext b; refine Fin.ext ?_
  match b with
  | ⟨0, _⟩ => rfl
  | ⟨1, _⟩ =>
    have hl : sd.length = 1 := by
      have h := wf.2.2.2.2.1
      rw [dif_pos (show (1 : Nat) < 2 by omega)] at h
      exact h
    have h1 : c.val < sd.length := c.isLt
    show c.val = 0
    omega

/-- On axis 0 the window starts at the row number, read as a signed integer. -/
theorem start2_zero (d : ScatterDims ⟨2, ![N, D]⟩ ⟨2, ![E, 1]⟩ ⟨2, ![E, D]⟩)
    (hu : d.updateWindowDims = [1]) (hs : d.scatterDimsToOperandDims = [0]) (hv : d.indexVectorDim = 1)
    (j : (⟨2, ![E, D]⟩ : Shape).Idx) (idx : IVec ⟨2, ![E, 1]⟩ w) :
    d.start j idx 0 = (idx (ix2 (j 0) 0)).toInt := by
  have hm : (0 : Fin 2) ∈ d.scatterDimsToOperandDims := by rw [hs]; exact List.mem_singleton.mpr rfl
  unfold ScatterDims.start
  rw [dif_pos hm, siIdx2 d hu hv]
  rfl

/-- On axis 1, which the index vector does not name, the window starts at 0. -/
theorem start2_one (d : ScatterDims ⟨2, ![N, D]⟩ ⟨2, ![E, 1]⟩ ⟨2, ![E, D]⟩)
    (hs : d.scatterDimsToOperandDims = [0])
    (j : (⟨2, ![E, D]⟩ : Shape).Idx) (idx : IVec ⟨2, ![E, 1]⟩ w) :
    d.start j idx 1 = 0 := by
  have hm : (1 : Fin 2) ∉ d.scatterDimsToOperandDims := by
    rw [hs]; show (1 : Fin 2) ∉ ([0] : List (Fin 2)); decide
  unfold ScatterDims.start
  rw [dif_neg hm]

/-- Axis 0 of the table is an inserted axis: its window coordinate is 0. -/
theorem window2_zero (d : ScatterDims ⟨2, ![N, D]⟩ ⟨2, ![E, 1]⟩ ⟨2, ![E, D]⟩)
    (hi : d.insertedWindowDims = [0]) (j : (⟨2, ![E, D]⟩ : Shape).Idx) :
    d.window j 0 = 0 := by
  have hm : (0 : Fin 2) ∉ d.sKept := by
    show (0 : Fin 2) ∉ Shape.kept _ d.insertedWindowDims
    rw [hi]; show (0 : Fin 2) ∉ (List.finRange 2).filter (· ∉ ([0] : List (Fin 2))); decide
  unfold ScatterDims.window
  rw [dif_neg hm]

/-- Axis 1 of the table is the one window axis: its window coordinate is the update's coordinate on axis 1. -/
theorem window2_one (d : ScatterDims ⟨2, ![N, D]⟩ ⟨2, ![E, 1]⟩ ⟨2, ![E, D]⟩)
    (hu : d.updateWindowDims = [1]) (hi : d.insertedWindowDims = [0]) (j : (⟨2, ![E, D]⟩ : Shape).Idx) :
    d.window j 1 = (j 1).val := by
  obtain ⟨uw, iw, sd, iv, wf⟩ := d
  obtain rfl : uw = [1] := hu
  obtain rfl : iw = [0] := hi
  rfl

/-- WHERE AN UPDATE LANDS. Update entry `j = (j₀, j₁)` lands on table entry `i` exactly when its row number
    `idx[j₀, 0]`, read as a signed integer, is `i`'s row, and `j₁` is `i`'s position in the row. (A row number that is
    negative or at least `N` is no row of the table: the update lands nowhere.) -/
theorem resultIdx2_eq_some_iff (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (j : (⟨2, ![E, D]⟩ : Shape).Idx) (idx : IVec ⟨2, ![E, 1]⟩ w) (i : (⟨2, ![N, D]⟩ : Shape).Idx) :
    d.resultIdx? j idx = some i ↔ (idx (ix2 (j 0) 0)).toInt = ((i 0).val : Int) ∧ (j 1 : Fin D) = i 1 := by
  have s0 := start2_zero d hu hs hv j idx
  have s1 := start2_one d hs j idx
  have w0 := window2_zero d hi j
  have w1 := window2_one d hu hi j
  have hi0 : (i 0).val < N := idx2_lt0 i
  have hi1 : (i 1).val < D := idx2_lt1 i
  have hj1 : (j 1).val < D := idx2_lt1 j
  unfold ScatterDims.resultIdx?
  constructor
  · intro h
    split at h
    · rename_i hb
      have h' := Option.some.inj h
      have e0 : (d.start j idx 0 + (d.window j 0 : Int)).toNat = (i 0).val := congrArg (fun f => (f 0).val) h'
      have e1 : (d.start j idx 1 + (d.window j 1 : Int)).toNat = (i 1).val := congrArg (fun f => (f 1).val) h'
      have hb0 := (hb 0).1
      rw [s0, w0] at e0 hb0
      rw [s1, w1] at e1
      exact ⟨by omega, Fin.ext (by omega)⟩
    · exact absurd h (by simp)
  · rintro ⟨hz, hj⟩
    have hj' : (j 1).val = (i 1).val := congrArg Fin.val hj
    have hall : ∀ a, 0 ≤ d.start j idx a + (d.window j a : Int) ∧
        d.start j idx a + (d.window j a : Int) < ((⟨2, ![N, D]⟩ : Shape).size a : Int) := by
      intro a
      match a with
      | ⟨0, _⟩ =>
        show 0 ≤ d.start j idx 0 + (d.window j 0 : Int) ∧ d.start j idx 0 + (d.window j 0 : Int) < (N : Int)
        rw [s0, w0]; omega
      | ⟨1, _⟩ =>
        show 0 ≤ d.start j idx 1 + (d.window j 1 : Int) ∧ d.start j idx 1 + (d.window j 1 : Int) < (D : Int)
        rw [s1, w1]; omega
    rw [dif_pos hall]
    congr 1
    funext a
    refine Fin.ext ?_
    match a with
    | ⟨0, _⟩ =>
      show (d.start j idx 0 + (d.window j 0 : Int)).toNat = (i 0).val
      rw [s0, w0]; omega
    | ⟨1, _⟩ =>
      show (d.start j idx 1 + (d.window j 1 : Int)).toNat = (i 1).val
      rw [s1, w1]; omega

/-- THE ACCUMULATING SCATTER READ AT `(n, e)`: the table's entry plus the entries `(j, e)` of every update row `j` whose
    row number `idx[j, 0]`, read as a signed integer, is `n`. -/
theorem scatterAdd2_apply {φ : FTy} (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : FVec Ideal ⟨2, ![N, D]⟩ φ) (idx : IVec ⟨2, ![E, 1]⟩ w) (upd : FVec Ideal ⟨2, ![E, D]⟩ φ) (n : Fin N) (e : Fin D) :
    Host.scatterAdd (F := Ideal) d x idx upd (ix2 n e)
      = x (ix2 n e) + ∑ j ∈ Finset.univ.filter (fun j : Fin E => (idx (ix2 j 0)).toInt = (n.val : Int)), upd (ix2 j e) := by
  show x (ix2 n e) + _ = x (ix2 n e) + _
  congr 1
  refine Finset.sum_nbij' (fun j' : (⟨2, ![E, D]⟩ : Shape).Idx => (j' 0 : Fin E)) (fun j : Fin E => ix2 j e) ?_ ?_ ?_ ?_ ?_
  · intro j' hj'
    have hl := (resultIdx2_eq_some_iff d hu hi hs hv j' idx (ix2 n e)).mp (Finset.mem_filter.mp hj').2
    exact Finset.mem_filter.mpr ⟨Finset.mem_univ _, hl.1⟩
  · intro j hj
    have hr := (Finset.mem_filter.mp hj).2
    exact Finset.mem_filter.mpr ⟨Finset.mem_univ _,
      (resultIdx2_eq_some_iff d hu hi hs hv (ix2 j e) idx (ix2 n e)).mpr ⟨hr, rfl⟩⟩
  · intro j' hj'
    have h2 : (j' 1 : Fin D) = e :=
      ((resultIdx2_eq_some_iff d hu hi hs hv j' idx (ix2 n e)).mp (Finset.mem_filter.mp hj').2).2
    show ix2 (j' 0) e = j'
    rw [← h2]; exact (eq_ix2 j').symm
  · intro j _
    rfl
  · intro j' hj'
    have h2 : (j' 1 : Fin D) = e :=
      ((resultIdx2_eq_some_iff d hu hi hs hv j' idx (ix2 n e)).mp (Finset.mem_filter.mp hj').2).2
    show upd j' = upd (ix2 (j' 0) e)
    rw [← h2]; exact congrArg upd (eq_ix2 j')

end S2

/-! ## Scatter into a table of blocks: operand `[N, C, D]`, row numbers `[E, 1]`, updates `[E, C, D]` -/

section S3
variable {N C D E w : Nat}

/-- The row-number array is read at `[j₀, 0]`: the update's row coordinate, and the one component of the index vector. -/
theorem siIdx3 (d : ScatterDims ⟨3, ![N, C, D]⟩ ⟨2, ![E, 1]⟩ ⟨3, ![E, C, D]⟩)
    (hu : d.updateWindowDims = [1, 2]) (hv : d.indexVectorDim = 1)
    (j : (⟨3, ![E, C, D]⟩ : Shape).Idx) (c : Fin d.scatterDimsToOperandDims.length) :
    d.siIdx j c = ix2 (j 0) 0 := by
  obtain ⟨uw, iw, sd, iv, wf⟩ := d
  obtain rfl : uw = [1, 2] := hu
  obtain rfl : iv = 1 := hv
  funext b; refine Fin.ext ?_
  match b with
  | ⟨0, _⟩ => rfl
  | ⟨1, _⟩ =>
    have hl : sd.length = 1 := by
      have h := wf.2.2.2.2.1
      rw [dif_pos (show (1 : Nat) < 2 by omega)] at h
      exact h
    have h1 : c.val < sd.length := c.isLt
    show c.val = 0
    omega

/-- On axis 0 the window starts at the row number, read as a signed integer. -/
theorem start3_zero (d : ScatterDims ⟨3, ![N, C, D]⟩ ⟨2, ![E, 1]⟩ ⟨3, ![E, C, D]⟩)
    (hu : d.updateWindowDims = [1, 2]) (hs : d.scatterDimsToOperandDims = [0]) (hv : d.indexVectorDim = 1)
    (j : (⟨3, ![E, C, D]⟩ : Shape).Idx) (idx : IVec ⟨2, ![E, 1]⟩ w) :
    d.start j idx 0 = (idx (ix2 (j 0) 0)).toInt := by
  have hm : (0 : Fin 3) ∈ d.scatterDimsToOperandDims := by rw [hs]; exact List.mem_singleton.mpr rfl
  unfold ScatterDims.start
  rw [dif_pos hm, siIdx3 d hu hv]
  rfl

/-- On axis 1, which the index vector does not name, the window starts at 0. -/
theorem start3_one (d : ScatterDims ⟨3, ![N, C, D]⟩ ⟨2, ![E, 1]⟩ ⟨3, ![E, C, D]⟩)
    (hs : d.scatterDimsToOperandDims = [0])
    (j : (⟨3, ![E, C, D]⟩ : Shape).Idx) (idx : IVec ⟨2, ![E, 1]⟩ w) :
    d.start j idx 1 = 0 := by
  have hm : (1 : Fin 3) ∉ d.scatterDimsToOperandDims := by
    rw [hs]; show (1 : Fin 3) ∉ ([0] : List (Fin 3)); decide
  unfold ScatterDims.start
  rw [dif_neg hm]

/-- On axis 2, which the index vector does not name, the window starts at 0. -/
theorem start3_two (d : ScatterDims ⟨3, ![N, C, D]⟩ ⟨2, ![E, 1]⟩ ⟨3, ![E, C, D]⟩)
    (hs : d.scatterDimsToOperandDims = [0])
    (j : (⟨3, ![E, C, D]⟩ : Shape).Idx) (idx : IVec ⟨2, ![E, 1]⟩ w) :
    d.start j idx 2 = 0 := by
  have hm : (2 : Fin 3) ∉ d.scatterDimsToOperandDims := by
    rw [hs]; show (2 : Fin 3) ∉ ([0] : List (Fin 3)); decide
  unfold ScatterDims.start
  rw [dif_neg hm]

/-- Axis 0 of the table is an inserted axis: its window coordinate is 0. -/
theorem window3_zero (d : ScatterDims ⟨3, ![N, C, D]⟩ ⟨2, ![E, 1]⟩ ⟨3, ![E, C, D]⟩)
    (hi : d.insertedWindowDims = [0]) (j : (⟨3, ![E, C, D]⟩ : Shape).Idx) :
    d.window j 0 = 0 := by
  have hm : (0 : Fin 3) ∉ d.sKept := by
    show (0 : Fin 3) ∉ Shape.kept _ d.insertedWindowDims
    rw [hi]; show (0 : Fin 3) ∉ (List.finRange 3).filter (· ∉ ([0] : List (Fin 3))); decide
  unfold ScatterDims.window
  rw [dif_neg hm]

/-- Axis 1 of the table is the first window axis: its window coordinate is the update's coordinate on axis 1. -/
theorem window3_one (d : ScatterDims ⟨3, ![N, C, D]⟩ ⟨2, ![E, 1]⟩ ⟨3, ![E, C, D]⟩)
    (hu : d.updateWindowDims = [1, 2]) (hi : d.insertedWindowDims = [0]) (j : (⟨3, ![E, C, D]⟩ : Shape).Idx) :
    d.window j 1 = (j 1).val := by
  obtain ⟨uw, iw, sd, iv, wf⟩ := d
  obtain rfl : uw = [1, 2] := hu
  obtain rfl : iw = [0] := hi
  rfl

/-- Axis 2 of the table is the second window axis: its window coordinate is the update's coordinate on axis 2. -/
theorem window3_two (d : ScatterDims ⟨3, ![N, C, D]⟩ ⟨2, ![E, 1]⟩ ⟨3, ![E, C, D]⟩)
    (hu : d.updateWindowDims = [1, 2]) (hi : d.insertedWindowDims = [0]) (j : (⟨3, ![E, C, D]⟩ : Shape).Idx) :
    d.window j 2 = (j 2).val := by
  obtain ⟨uw, iw, sd, iv, wf⟩ := d
  obtain rfl : uw = [1, 2] := hu
  obtain rfl : iw = [0] := hi
  rfl

/-- WHERE AN UPDATE LANDS. Update entry `j = (j₀, j₁, j₂)` lands on table entry `i` exactly when its row number
    `idx[j₀, 0]`, read as a signed integer, is `i`'s row, and `(j₁, j₂)` is `i`'s position in the block. (A row number
    that is negative or at least `N` is no row of the table: the update lands nowhere.) -/
theorem resultIdx3_eq_some_iff (d : ScatterDims ⟨3, ![N, C, D]⟩ ⟨2, ![E, 1]⟩ ⟨3, ![E, C, D]⟩)
    (hu : d.updateWindowDims = [1, 2]) (hi : d.insertedWindowDims = [0]) (hs : d.scatterDimsToOperandDims = [0])
    (hv : d.indexVectorDim = 1)
    (j : (⟨3, ![E, C, D]⟩ : Shape).Idx) (idx : IVec ⟨2, ![E, 1]⟩ w) (i : (⟨3, ![N, C, D]⟩ : Shape).Idx) :
    d.resultIdx? j idx = some i ↔
      (idx (ix2 (j 0) 0)).toInt = ((i 0).val : Int) ∧ (j 1 : Fin C) = i 1 ∧ (j 2 : Fin D) = i 2 := by
  have s0 := start3_zero d hu hs hv j idx
  have s1 := start3_one d hs j idx
  have s2 := start3_two d hs j idx
  have w0 := window3_zero d hi j
  have w1 := window3_one d hu hi j
  have w2 := window3_two d hu hi j
  have hi0 : (i 0).val < N := (i 0).isLt
  have hi1 : (i 1).val < C := (i 1).isLt
  have hi2 : (i 2).val < D := (i 2).isLt
  have hj1 : (j 1).val < C := (j 1).isLt
  have hj2 : (j 2).val < D := (j 2).isLt
  unfold ScatterDims.resultIdx?
  constructor
  · intro h
    split at h
    · rename_i hb
      have h' := Option.some.inj h
      have e0 : (d.start j idx 0 + (d.window j 0 : Int)).toNat = (i 0).val := congrArg (fun f => (f 0).val) h'
      have e1 : (d.start j idx 1 + (d.window j 1 : Int)).toNat = (i 1).val := congrArg (fun f => (f 1).val) h'
      have e2 : (d.start j idx 2 + (d.window j 2 : Int)).toNat = (i 2).val := congrArg (fun f => (f 2).val) h'
      have hb0 := (hb 0).1
      rw [s0, w0] at e0 hb0
      rw [s1, w1] at e1
      rw [s2, w2] at e2
      exact ⟨by omega, Fin.ext (by omega), Fin.ext (by omega)⟩
    · exact absurd h (by simp)
  · rintro ⟨hz, hj1e, hj2e⟩
    have hj1' : (j 1).val = (i 1).val := congrArg Fin.val hj1e
    have hj2' : (j 2).val = (i 2).val := congrArg Fin.val hj2e
    have hall : ∀ a, 0 ≤ d.start j idx a + (d.window j a : Int) ∧
        d.start j idx a + (d.window j a : Int) < ((⟨3, ![N, C, D]⟩ : Shape).size a : Int) := by
      intro a
      match a with
      | ⟨0, _⟩ =>
        show 0 ≤ d.start j idx 0 + (d.window j 0 : Int) ∧ d.start j idx 0 + (d.window j 0 : Int) < (N : Int)
        rw [s0, w0]; omega
      | ⟨1, _⟩ =>
        show 0 ≤ d.start j idx 1 + (d.window j 1 : Int) ∧ d.start j idx 1 + (d.window j 1 : Int) < (C : Int)
        rw [s1, w1]; omega
      | ⟨2, _⟩ =>
        show 0 ≤ d.start j idx 2 + (d.window j 2 : Int) ∧ d.start j idx 2 + (d.window j 2 : Int) < (D : Int)
        rw [s2, w2]; omega
    rw [dif_pos hall]
    congr 1
    funext a
    refine Fin.ext ?_
    match a with
    | ⟨0, _⟩ =>
      show (d.start j idx 0 + (d.window j 0 : Int)).toNat = (i 0).val
      rw [s0, w0]; omega
    | ⟨1, _⟩ =>
      show (d.start j idx 1 + (d.window j 1 : Int)).toNat = (i 1).val
      rw [s1, w1]; omega
    | ⟨2, _⟩ =>
      show (d.start j idx 2 + (d.window j 2 : Int)).toNat = (i 2).val
      rw [s2, w2]; omega

/-- THE ACCUMULATING SCATTER READ AT `(n, c, e)`: the table's entry plus the entries `(j, c, e)` of every update block
    `j` whose row number `idx[j, 0]`, read as a signed integer, is `n`. -/
theorem scatterAdd3_apply {φ : FTy} (d : ScatterDims ⟨3, ![N, C, D]⟩ ⟨2, ![E, 1]⟩ ⟨3, ![E, C, D]⟩)
    (hu : d.updateWindowDims = [1, 2]) (hi : d.insertedWindowDims = [0]) (hs : d.scatterDimsToOperandDims = [0])
    (hv : d.indexVectorDim = 1)
    (x : FVec Ideal ⟨3, ![N, C, D]⟩ φ) (idx : IVec ⟨2, ![E, 1]⟩ w) (upd : FVec Ideal ⟨3, ![E, C, D]⟩ φ)
    (n : Fin N) (c : Fin C) (e : Fin D) :
    Host.scatterAdd (F := Ideal) d x idx upd (ix3 n c e)
      = x (ix3 n c e)
        + ∑ j ∈ Finset.univ.filter (fun j : Fin E => (idx (ix2 j 0)).toInt = (n.val : Int)), upd (ix3 j c e) := by
  show x (ix3 n c e) + _ = x (ix3 n c e) + _
  congr 1
  refine Finset.sum_nbij' (fun j' : (⟨3, ![E, C, D]⟩ : Shape).Idx => (j' 0 : Fin E)) (fun j : Fin E => ix3 j c e)
    ?_ ?_ ?_ ?_ ?_
  · intro j' hj'
    have hl := (resultIdx3_eq_some_iff d hu hi hs hv j' idx (ix3 n c e)).mp (Finset.mem_filter.mp hj').2
    exact Finset.mem_filter.mpr ⟨Finset.mem_univ _, hl.1⟩
  · intro j hj
    have hr := (Finset.mem_filter.mp hj).2
    exact Finset.mem_filter.mpr ⟨Finset.mem_univ _,
      (resultIdx3_eq_some_iff d hu hi hs hv (ix3 j c e) idx (ix3 n c e)).mpr ⟨hr, rfl, rfl⟩⟩
  · intro j' hj'
    have hl := (resultIdx3_eq_some_iff d hu hi hs hv j' idx (ix3 n c e)).mp (Finset.mem_filter.mp hj').2
    have h1 : (j' 1 : Fin C) = c := hl.2.1
    have h2 : (j' 2 : Fin D) = e := hl.2.2
    show ix3 (j' 0) c e = j'
    rw [← h1, ← h2]; exact (eq_ix3 j').symm
  · intro j _
    rfl
  · intro j' hj'
    have hl := (resultIdx3_eq_some_iff d hu hi hs hv j' idx (ix3 n c e)).mp (Finset.mem_filter.mp hj').2
    have h1 : (j' 1 : Fin C) = c := hl.2.1
    have h2 : (j' 2 : Fin D) = e := hl.2.2
    show upd j' = upd (ix3 (j' 0) c e)
    rw [← h1, ← h2]; exact congrArg upd (eq_ix3 j')

end S3

/-! ## Gather of rows -/

/-- Row number `z`, a signed integer, clamped into the rows `[0, N − 1]` of a table with at least one row. -/
def clampRow (N : Nat) (hN : 0 < N) (z : Int) : Fin N := ⟨min z.toNat (N - 1), by omega⟩

/-! ### From a table of vectors: operand `[N, D]`, row numbers `[E, 1]`, result `[E, D]` -/

section G2
variable {N D E w : Nat} {α : Type}

/-- The row-number array is read at `[j₀, 0]`: the result's row coordinate, and the one component of the index vector. -/
theorem gatherSiIdx2 (d : GatherDims ⟨2, ![N, D]⟩ ⟨2, ![E, 1]⟩ ⟨2, ![E, D]⟩)
    (ho : d.offsetDims = [1]) (hm : d.startIndexMap = [0]) (hv : d.indexVectorDim = 1)
    (j : (⟨2, ![E, D]⟩ : Shape).Idx) (c : Fin d.startIndexMap.length) :
    d.siIdx j c = ix2 (j 0) 0 := by
  obtain ⟨od, cd, ob, sb, sm, iv, ss, wf⟩ := d
  obtain rfl : od = [1] := ho
  obtain rfl : sm = [0] := hm
  obtain rfl : iv = 1 := hv
  funext b; refine Fin.ext ?_
  match b with
  | ⟨0, _⟩ => rfl
  | ⟨1, _⟩ =>
    have h1 : c.val < 1 := c.isLt
    show c.val = 0
    omega

/-- On axis 0 the slice (one row) starts at the row number, read as a signed integer and clamped into `[0, N − 1]`. -/
theorem gatherStart2_zero (d : GatherDims ⟨2, ![N, D]⟩ ⟨2, ![E, 1]⟩ ⟨2, ![E, D]⟩)
    (ho : d.offsetDims = [1]) (hm : d.startIndexMap = [0]) (hv : d.indexVectorDim = 1) (hss : d.sliceSizes = ![1, D])
    (j : (⟨2, ![E, D]⟩ : Shape).Idx) (idx : IVec ⟨2, ![E, 1]⟩ w) :
    d.start j idx 0 = min (idx (ix2 (j 0) 0)).toInt.toNat (N - 1) := by
  have hmem : (0 : Fin 2) ∈ d.startIndexMap := by rw [hm]; exact List.mem_singleton.mpr rfl
  unfold GatherDims.start
  rw [dif_pos hmem, gatherSiIdx2 d ho hm hv, hss]
  rfl

/-- On axis 1, which the index vector does not name, the slice (a whole row) starts at 0. -/
theorem gatherStart2_one (d : GatherDims ⟨2, ![N, D]⟩ ⟨2, ![E, 1]⟩ ⟨2, ![E, D]⟩)
    (hm : d.startIndexMap = [0]) (j : (⟨2, ![E, D]⟩ : Shape).Idx) (idx : IVec ⟨2, ![E, 1]⟩ w) :
    d.start j idx 1 = 0 := by
  have hmem : (1 : Fin 2) ∉ d.startIndexMap := by
    rw [hm]; show (1 : Fin 2) ∉ ([0] : List (Fin 2)); decide
  unfold GatherDims.start
  rw [dif_neg hmem]

/-- Axis 0 of the table is collapsed: it has no offset coordinate. -/
theorem gatherOff2_zero (d : GatherDims ⟨2, ![N, D]⟩ ⟨2, ![E, 1]⟩ ⟨2, ![E, D]⟩)
    (hc : d.collapsedSliceDims = [0]) (j : (⟨2, ![E, D]⟩ : Shape).Idx) :
    d.offCoord j 0 = 0 :=
  d.offCoord_eq_zero j 0 fun h => ((d.mem_sKept 0).1 h).1 (by rw [hc]; exact List.mem_singleton.mpr rfl)

/-- Axis 1 of the table is the one offset axis: its offset coordinate is the result's coordinate on axis 1. -/
theorem gatherOff2_one (d : GatherDims ⟨2, ![N, D]⟩ ⟨2, ![E, 1]⟩ ⟨2, ![E, D]⟩)
    (ho : d.offsetDims = [1]) (hc : d.collapsedSliceDims = [0]) (hb : d.operandBatchingDims = [])
    (j : (⟨2, ![E, D]⟩ : Shape).Idx) :
    d.offCoord j 1 = (j 1).val := by
  obtain ⟨od, cd, ob, sb, sm, iv, ss, wf⟩ := d
  obtain rfl : od = [1] := ho
  obtain rfl : cd = [0] := hc
  obtain rfl : ob = [] := hb
  rfl

/-- THE GATHER READ AT `(j, e)`: entry `e` of the table's row `idx[j, 0]`, the row number read as a signed integer and
    clamped into `[0, N − 1]`. -/
theorem gather2_apply (d : GatherDims ⟨2, ![N, D]⟩ ⟨2, ![E, 1]⟩ ⟨2, ![E, D]⟩)
    (ho : d.offsetDims = [1]) (hc : d.collapsedSliceDims = [0]) (hb : d.operandBatchingDims = [])
    (hm : d.startIndexMap = [0]) (hv : d.indexVectorDim = 1) (hss : d.sliceSizes = ![1, D]) (hN : 0 < N)
    (x : (⟨2, ![N, D]⟩ : Shape).Idx → α) (idx : IVec ⟨2, ![E, 1]⟩ w) (j : Fin E) (e : Fin D) :
    Host.gather d x idx (ix2 j e) = x (ix2 (clampRow N hN (idx (ix2 j 0)).toInt) e) := by
  have hnb : ∀ a, a ∉ d.operandBatchingDims := by intro a; rw [hb]; exact List.not_mem_nil
  unfold Host.gather
  congr 1
  funext a
  refine Fin.ext ?_
  match a with
  | ⟨0, _⟩ =>
    show d.start (ix2 j e) idx 0 + d.batchCoord (ix2 j e) 0 + d.offCoord (ix2 j e) 0
      = min (idx (ix2 j 0)).toInt.toNat (N - 1)
    rw [gatherStart2_zero d ho hm hv hss, d.batchCoord_eq_zero _ _ (hnb 0), gatherOff2_zero d hc]
    rfl
  | ⟨1, _⟩ =>
    show d.start (ix2 j e) idx 1 + d.batchCoord (ix2 j e) 1 + d.offCoord (ix2 j e) 1 = e.val
    rw [gatherStart2_one d hm, d.batchCoord_eq_zero _ _ (hnb 1), gatherOff2_one d ho hc hb]
    show 0 + 0 + e.val = e.val
    omega

end G2

/-! ### From a table of blocks: operand `[N, C, D]`, row numbers `[E, 1]`, result `[E, C, D]` -/

section G3
variable {N C D E w : Nat} {α : Type}

/-- The row-number array is read at `[j₀, 0]`: the result's row coordinate, and the one component of the index vector. -/
theorem gatherSiIdx3 (d : GatherDims ⟨3, ![N, C, D]⟩ ⟨2, ![E, 1]⟩ ⟨3, ![E, C, D]⟩)
    (ho : d.offsetDims = [1, 2]) (hm : d.startIndexMap = [0]) (hv : d.indexVectorDim = 1)
    (j : (⟨3, ![E, C, D]⟩ : Shape).Idx) (c : Fin d.startIndexMap.length) :
    d.siIdx j c = ix2 (j 0) 0 := by
  obtain ⟨od, cd, ob, sb, sm, iv, ss, wf⟩ := d
  obtain rfl : od = [1, 2] := ho
  obtain rfl : sm = [0] := hm
  obtain rfl : iv = 1 := hv
  funext b; refine Fin.ext ?_
  match b with
  | ⟨0, _⟩ => rfl
  | ⟨1, _⟩ =>
    have h1 : c.val < 1 := c.isLt
    show c.val = 0
    omega

/-- On axis 0 the slice (one block) starts at the row number, read as a signed integer and clamped into `[0, N − 1]`. -/
theorem gatherStart3_zero (d : GatherDims ⟨3, ![N, C, D]⟩ ⟨2, ![E, 1]⟩ ⟨3, ![E, C, D]⟩)
    (ho : d.offsetDims = [1, 2]) (hm : d.startIndexMap = [0]) (hv : d.indexVectorDim = 1)
    (hss : d.sliceSizes = ![1, C, D])
    (j : (⟨3, ![E, C, D]⟩ : Shape).Idx) (idx : IVec ⟨2, ![E, 1]⟩ w) :
    d.start j idx 0 = min (idx (ix2 (j 0) 0)).toInt.toNat (N - 1) := by
  have hmem : (0 : Fin 3) ∈ d.startIndexMap := by rw [hm]; exact List.mem_singleton.mpr rfl
  unfold GatherDims.start
  rw [dif_pos hmem, gatherSiIdx3 d ho hm hv, hss]
  rfl

/-- On an axis the index vector does not name (1 or 2) the slice, a whole block, starts at 0. -/
theorem gatherStart3_ne_zero (d : GatherDims ⟨3, ![N, C, D]⟩ ⟨2, ![E, 1]⟩ ⟨3, ![E, C, D]⟩)
    (hm : d.startIndexMap = [0]) (j : (⟨3, ![E, C, D]⟩ : Shape).Idx) (idx : IVec ⟨2, ![E, 1]⟩ w)
    (a : Fin 3) (ha : a ≠ 0) :
    d.start j idx a = 0 := by
  have hmem : a ∉ d.startIndexMap := by
    rw [hm]; exact fun h => ha (List.mem_singleton.mp h)
  unfold GatherDims.start
  rw [dif_neg hmem]

/-- Axis 0 of the table is collapsed: it has no offset coordinate. -/
theorem gatherOff3_zero (d : GatherDims ⟨3, ![N, C, D]⟩ ⟨2, ![E, 1]⟩ ⟨3, ![E, C, D]⟩)
    (hc : d.collapsedSliceDims = [0]) (j : (⟨3, ![E, C, D]⟩ : Shape).Idx) :
    d.offCoord j 0 = 0 :=
  d.offCoord_eq_zero j 0 fun h => ((d.mem_sKept 0).1 h).1 (by rw [hc]; exact List.mem_singleton.mpr rfl)

/-- Axis 1 of the table is the first offset axis: its offset coordinate is the result's coordinate on axis 1. -/
theorem gatherOff3_one (d : GatherDims ⟨3, ![N, C, D]⟩ ⟨2, ![E, 1]⟩ ⟨3, ![E, C, D]⟩)
    (ho : d.offsetDims = [1, 2]) (hc : d.collapsedSliceDims = [0]) (hb : d.operandBatchingDims = [])
    (j : (⟨3, ![E, C, D]⟩ : Shape).Idx) :
    d.offCoord j 1 = (j 1).val := by
  obtain ⟨od, cd, ob, sb, sm, iv, ss, wf⟩ := d
  obtain rfl : od = [1, 2] := ho
  obtain rfl : cd = [0] := hc
  obtain rfl : ob = [] := hb
  rfl

/-- Axis 2 of the table is the second offset axis: its offset coordinate is the result's coordinate on axis 2. -/
theorem gatherOff3_two (d : GatherDims ⟨3, ![N, C, D]⟩ ⟨2, ![E, 1]⟩ ⟨3, ![E, C, D]⟩)
    (ho : d.offsetDims = [1, 2]) (hc : d.collapsedSliceDims = [0]) (hb : d.operandBatchingDims = [])
    (j : (⟨3, ![E, C, D]⟩ : Shape).Idx) :
    d.offCoord j 2 = (j 2).val := by
  obtain ⟨od, cd, ob, sb, sm, iv, ss, wf⟩ := d
  obtain rfl : od = [1, 2] := ho
  obtain rfl : cd = [0] := hc
  obtain rfl : ob = [] := hb
  rfl

/-- THE GATHER READ AT `(j, c, e)`: entry `(c, e)` of the table's block `idx[j, 0]`, the row number read as a signed
    integer and clamped into `[0, N − 1]`. -/
theorem gather3_apply (d : GatherDims ⟨3, ![N, C, D]⟩ ⟨2, ![E, 1]⟩ ⟨3, ![E, C, D]⟩)
    (ho : d.offsetDims = [1, 2]) (hc : d.collapsedSliceDims = [0]) (hb : d.operandBatchingDims = [])
    (hm : d.startIndexMap = [0]) (hv : d.indexVectorDim = 1) (hss : d.sliceSizes = ![1, C, D]) (hN : 0 < N)
    (x : (⟨3, ![N, C, D]⟩ : Shape).Idx → α) (idx : IVec ⟨2, ![E, 1]⟩ w) (j : Fin E) (c : Fin C) (e : Fin D) :
    Host.gather d x idx (ix3 j c e) = x (ix3 (clampRow N hN (idx (ix2 j 0)).toInt) c e) := by
  have hnb : ∀ a, a ∉ d.operandBatchingDims := by intro a; rw [hb]; exact List.not_mem_nil
  unfold Host.gather
  congr 1
  funext a
  refine Fin.ext ?_
  match a with
  | ⟨0, _⟩ =>
    show d.start (ix3 j c e) idx 0 + d.batchCoord (ix3 j c e) 0 + d.offCoord (ix3 j c e) 0
      = min (idx (ix2 j 0)).toInt.toNat (N - 1)
    rw [gatherStart3_zero d ho hm hv hss, d.batchCoord_eq_zero _ _ (hnb 0), gatherOff3_zero d hc]
    rfl
  | ⟨1, _⟩ =>
    show d.start (ix3 j c e) idx 1 + d.batchCoord (ix3 j c e) 1 + d.offCoord (ix3 j c e) 1 = c.val
    rw [gatherStart3_ne_zero d hm _ _ 1 (by decide), d.batchCoord_eq_zero _ _ (hnb 1), gatherOff3_one d ho hc hb]
    show 0 + 0 + c.val = c.val
    omega
  | ⟨2, _⟩ =>
    show d.start (ix3 j c e) idx 2 + d.batchCoord (ix3 j c e) 2 + d.offCoord (ix3 j c e) 2 = e.val
    rw [gatherStart3_ne_zero d hm _ _ 2 (by decide), d.batchCoord_eq_zero _ _ (hnb 2), gatherOff3_two d ho hc hb]
    show 0 + 0 + e.val = e.val
    omega

end G3

end Cert.Lib.RowScatter

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibIsReal.lean ====
/-
  Extended reals that are real numbers.

  A float input that is finite denotes, at the ideal instance, an extended real that is neither infinity: a real
  number. Sums, differences, products and maxima of real numbers are real, and so is a quotient by a nonzero real;
  the laws of arithmetic that fail at the infinities (distributivity, cancellation) hold on such values.
-/
import Idealize.ShloMosaic.PureOps.Ideal

noncomputable section

namespace Cert.Reals

open Idealize.ShloMosaic

/-- `x` is a real number: not an infinity. -/
def IsReal (x : EReal) : Prop := ∃ a : ℝ, x = (a : EReal)

theorem isReal_coe (a : ℝ) : IsReal (a : EReal) := ⟨a, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (by exact_mod_cast h)⟩
  · exact ⟨a, max_eq_left (by exact_mod_cast h)⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real number by a nonzero real number is a real number. -/
theorem IsReal.div_coe {x : EReal} (hx : IsReal x) {y : ℝ} (hy : y ≠ 0) : IsReal (Ideal.div x (y : EReal)) := by
  rw [Ideal.div_coe hy]; exact hx.mul (isReal_coe _)

/-- The quotient of a real number by an extended real that is at least one is a real number: the divisor is a
    nonzero real, or `+∞`, whose inverse is zero. -/
theorem IsReal.div_of_one_le {x y : EReal} (hx : IsReal x) (hy : 1 ≤ y) : IsReal (Ideal.div x y) := by
  obtain ⟨a, rfl⟩ := hx
  induction y using EReal.rec with
  | bot => exact absurd (le_bot_iff.mp hy) (by rw [← EReal.coe_one]; exact EReal.coe_ne_bot 1)
  | top => exact ⟨0, by simp [Ideal.div]⟩
  | coe b =>
    have hb : (1 : ℝ) ≤ b := by exact_mod_cast hy
    exact (isReal_coe a).div_coe (by linarith : b ≠ 0)

end Cert.Reals

end
-- ==== Proof.Law.lean ====
/-
  The law that joins the two programs, on real numbers.

  For a finite set S of edges, real node features X(c, j, k) (channel c, edge j's source node, feature k), real weights
  W(k) and real edge weights w(j):
      (Σ_c Σ_{j ∈ S} (Σ_k X(c,j,k) · W(k)) · w(j)) / 4  =  Σ_{j ∈ S} (Σ_k ((Σ_c X(c,j,k)) / 4) · W(k)) · w(j).
  The left side multiplies every channel by the weights, scales, adds over the edges and only then averages over the
  channels; the right side averages first. The two agree by distributivity, which holds on real numbers but not at the
  infinities of the extended reals, so the extended-real form takes the hypothesis that every entry is a real number.
-/
import Idealize.ShloMosaic.PureOps.Ideal
import Idealize.ShloMosaic.Lib.ValueIdx
import proofs.«138304_j68032281968990_2_alg».proof.Proof.LibIsReal

noncomputable section

open scoped BigOperators
open Idealize.ShloMosaic Idealize.ShloMosaic.ValueIdx Idealize.ShloMosaic.TcCoe Idealize.SL.Sem

namespace Cert.Bridge.Law

open Cert.Reals

/-- The coercion of a finite sum of real numbers is the sum of the coercions. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The law on real numbers, the division by 4 written as the product with 1/4. -/
theorem real_law {ι : Type*} (S : Finset ι) (X : Fin 4 → ι → Fin 128 → ℝ) (W : Fin 128 → ℝ) (w : ι → ℝ) :
    (∑ c : Fin 4, ∑ j ∈ S, (∑ k : Fin 128, X c j k * W k) * w j) * (1 / 4 : ℝ)
      = ∑ j ∈ S, (∑ k : Fin 128, ((∑ c : Fin 4, X c j k) * (1 / 4 : ℝ)) * W k) * w j := by
  rw [Finset.sum_comm, Finset.sum_mul]
  refine Finset.sum_congr rfl fun j _ => ?_
  have e : ∑ k : Fin 128, ((∑ c : Fin 4, X c j k) * (1 / 4 : ℝ)) * W k
      = (∑ c : Fin 4, ∑ k : Fin 128, X c j k * W k) * (1 / 4 : ℝ) := by
    rw [Finset.sum_comm, Finset.sum_mul]
    refine Finset.sum_congr rfl fun k _ => ?_
    rw [← Finset.sum_mul]; ring
  rw [e, ← Finset.sum_mul]; ring

/-- The law on extended reals that are real numbers, with the zero initial values of the two accumulations. -/
theorem ereal_law {ι : Type*} (S : Finset ι) (X : Fin 4 → ι → Fin 128 → EReal) (W : Fin 128 → EReal) (w : ι → EReal)
    (hX : ∀ c j k, IsReal (X c j k)) (hW : ∀ k, IsReal (W k)) (hw : ∀ j, IsReal (w j)) :
    Ideal.div (0 + ∑ c : Fin 4, (0 + ∑ j ∈ S, (∑ k : Fin 128, X c j k * W k) * w j)) ((4 : ℝ) : EReal)
      = 0 + ∑ j ∈ S, (∑ k : Fin 128, Ideal.div (∑ c : Fin 4, X c j k) ((4 : ℝ) : EReal) * W k) * w j := by
  choose X' hX' using hX
  choose W' hW' using hW
  choose w' hw' using hw
  simp only [hX', hW', hw', Ideal.div_coe (by norm_num : (4 : ℝ) ≠ 0), zero_add, ← EReal.coe_mul, coe_sum]
  exact congrArg _ (real_law S X' W' w')

end Cert.Bridge.Law

end
-- ==== Proof.LibFour.lean ====
/-
  The f32 word 0x40800000 on the extended reals: sign 0, exponent field 129, fraction 0, that is 2 ^ (129 - 127) = 4.
  Nothing here depends on a particular program.
-/
import Idealize.ShloMosaic.PureOps.Ideal

noncomputable section

namespace Cert.Lib.Four

open Idealize.ShloMosaic

/-- The float word 0x40800000 denotes the real number 4. -/
theorem four_word : Ideal.ofBits .f32 0x40800000#32 = ((4 : ℝ) : EReal) := by
  simp [Ideal.ofBits, Ideal.ieee, -EReal.coe_mul]; norm_num

end Cert.Lib.Four

end
-- ==== Proof.Embedding.lean ====
/-
  The node embedding of the two programs is one array, on real inputs.

  Write s(j), d(j) for the source and destination index words of edge j, r(j) for the node row the gather reads at
  s(j) (the word clamped to the table) and L(n) for the set of edges whose destination word is exactly n. Then at node n
  and feature e
    * the kernel program's embedding is   0 + Σ_{j ∈ L(n)} (Σ_k ((Σ_c x(r j, c, k)) / 4) · W(k, e)) · w(j),
    * the reference's embedding is        (0 + Σ_c (0 + Σ_{j ∈ L(n)} (Σ_k x(r j, c, k) · W(k, e)) · w(j))) / 4,
  and the two agree when x, W and w hold real numbers (the law of the module on real numbers). Both programs compute
  s, d from the edge list by the same operations, so r and L are the same on both sides.
-/
import proofs.«138304_j68032281968990_2_alg».proof.Proof.KernelTail
import proofs.«138304_j68032281968990_2_alg».proof.Proof.Gen.ReferenceIdeal.Read
import proofs.«138304_j68032281968990_2_alg».proof.Proof.LibRowScatter
import proofs.«138304_j68032281968990_2_alg».proof.Proof.LibBroadcastReads
import proofs.«138304_j68032281968990_2_alg».proof.Proof.Law
import proofs.«138304_j68032281968990_2_alg».proof.Proof.LibFour
import proofs.«138304_j68032281968990_2_alg».proof.Proof.LibIsReal

noncomputable section

open scoped BigOperators
open Idealize.ShloMosaic Idealize.ShloMosaic.ValueIdx Idealize.ShloMosaic.TcCoe Idealize.SL.Sem

namespace Cert.Bridge.Emb

open Cert.Bridge Cert.Reals Cert.Lib.RowScatter Cert.Lib.BroadcastReads

/-- The node row edge j reads: its index word, clamped to the table's rows. -/
def row (idx : IVec ⟨2, ![400000, 1]⟩ 32) (j : Fin 400000) : Fin 50000 :=
  clampRow 50000 (by decide) (idx (ix2 j 0)).toInt

/-- The edges whose index word is exactly node n. -/
def lands (idx : IVec ⟨2, ![400000, 1]⟩ 32) (n : Fin 50000) : Finset (Fin 400000) :=
  Finset.univ.filter (fun j => (idx (ix2 j 0)).toInt = (n.val : Int))

variable (x0 : FVec Ideal ⟨3, ![50000, 4, 128]⟩ .f32) (x1 : IVec ⟨2, ![2, 400000]⟩ 32)
  (x2 : FVec Ideal ⟨1, ![400000]⟩ .f32) (x4 : FVec Ideal ⟨2, ![128, 128]⟩ .f32)

/-- Both programs read the source words by the same operations. -/
theorem srcIdx_eq : KTail.srcIdx x1 = Cert.ReferenceIdeal.Read.val_main_v10 (F := Ideal) x1 := rfl
/-- Both programs read the destination words by the same operations. -/
theorem dstIdx_eq : KTail.dstIdx x1 = Cert.ReferenceIdeal.Read.val_main_v16 (F := Ideal) x1 := rfl

/-- The kernel program's embedding at (n, e). -/
theorem kernel_emb (n : Fin 50000) (e : Fin 128) :
    KTail.emb (convMean x0 x4) x1 x2 (ix2 n e)
      = Ideal.ofBits .f32 0x00000000#32 + ∑ j ∈ lands (KTail.dstIdx x1) n,
          (∑ k : Fin 128, Ideal.div (∑ c : Fin 4, x0 (ix3 (row (KTail.srcIdx x1) j) c k)) (Ideal.ofBits .f32 0x40800000#32)
            * x4 (ix2 k e)) * x2 (ix1 j) := by
  unfold lands row KTail.emb
  rw [scatterAdd2_apply Cert.KernelIdeal.scatter_S50000x128_S400000x1_S400000x128_1_0_0_1 rfl rfl rfl rfl]
  refine congrArg₂ (· + ·) ?_ (Finset.sum_congr rfl fun j _ => ?_)
  · exact broadcastInDim_apply _ _ _ (ix2 n e) ix0 (fun a => a.elim0)
  · unfold KTail.msg
    rw [mulf_apply, gather2_apply Cert.KernelIdeal.gather_S50000x128_S400000x1_S400000x128_1_0_n_n_0_1_1128 rfl rfl rfl rfl rfl rfl (by decide),
      broadcastInDim_a1_ab_apply, broadcastInDim_a_a1_apply]
    rfl

/-- The reference's embedding at (n, e). -/
theorem ref_emb (n : Fin 50000) (e : Fin 128) :
    Cert.ReferenceIdeal.Read.val_main_v20 (F := Ideal) x0 x1 x2 x4 (ix2 n e)
      = Ideal.div (Ideal.ofBits .f32 0x00000000#32 + ∑ c : Fin 4, (Ideal.ofBits .f32 0x00000000#32
          + ∑ j ∈ lands (Cert.ReferenceIdeal.Read.val_main_v16 (F := Ideal) x1) n,
              (∑ k : Fin 128, x0 (ix3 (row (Cert.ReferenceIdeal.Read.val_main_v10 (F := Ideal) x1) j) c k) * x4 (ix2 k e)) * x2 (ix1 j)))
          (Ideal.ofBits .f32 0x40800000#32) := by
  unfold lands row
  rw [Cert.ReferenceIdeal.Read.val_main_v20_apply, Cert.ReferenceIdeal.Read.val_main_v18_apply, Cert.ReferenceIdeal.Read.val_main_v19_apply,
    Cert.ReferenceIdeal.Read.val_main_cst_2_apply, Cert.ReferenceIdeal.Read.val_main_cst_1_apply]
  refine congrArg (fun z => Ideal.div (Ideal.ofBits .f32 0x00000000#32 + z) (Ideal.ofBits .f32 0x40800000#32))
    (Finset.sum_congr rfl fun c _ => ?_)
  have hi : Cert.ReferenceIdeal.Read.idx_main_v18 (ix2 n e) c = ix3 n c e :=
    funext fun a => Fin.ext (by match a with | ⟨0, _⟩ => rfl | ⟨1, _⟩ => rfl | ⟨2, _⟩ => rfl)
  rw [hi]
  unfold Cert.ReferenceIdeal.Read.val_main_v17
  rw [scatterAdd3_apply Cert.ReferenceIdeal.scatter_S50000x4x128_S400000x1_S400000x4x128_12_0_0_1 rfl rfl rfl rfl]
  refine congrArg₂ (· + ·) ?_ (Finset.sum_congr rfl fun j _ => ?_)
  · rw [Cert.ReferenceIdeal.Read.val_main_v15_apply, Cert.ReferenceIdeal.Read.val_main_cst_apply]; rfl
  · have e13 : Cert.ReferenceIdeal.Read.val_main_v13 (F := Ideal) x2 (ix3 j c e) = x2 (ix1 j) := by
      rw [Cert.ReferenceIdeal.Read.val_main_v13_apply, Cert.ReferenceIdeal.Read.val_main_v12_apply]
      exact congrArg x2 (funext fun a => Fin.ext (by match a with | ⟨0, _⟩ => rfl))
    have e11 : Cert.ReferenceIdeal.Read.val_main_v11 (F := Ideal) x0 x1 x4 (ix3 j c e)
        = ∑ k : Fin 128, x0 (ix3 (clampRow 50000 (by decide) ((Cert.ReferenceIdeal.Read.val_main_v10 (F := Ideal) x1) (ix2 j 0)).toInt) c k) * x4 (ix2 k e) := by
      unfold Cert.ReferenceIdeal.Read.val_main_v11
      rw [gather3_apply Cert.ReferenceIdeal.gather_S50000x4x128_S400000x1_S400000x4x128_12_0_n_n_0_1_14128 rfl rfl rfl rfl rfl rfl (by decide),
        Cert.ReferenceIdeal.Read.val_main_v4_apply]
      refine Finset.sum_congr rfl fun k _ => ?_
      refine congrArg₂ (· * ·) (congrArg x0 (funext fun a => Fin.ext ?_)) (congrArg x4 (funext fun a => Fin.ext ?_))
      · match a with | ⟨0, _⟩ => rfl | ⟨1, _⟩ => rfl | ⟨2, _⟩ => rfl
      · match a with | ⟨0, _⟩ => rfl | ⟨1, _⟩ => rfl
    rw [Cert.ReferenceIdeal.Read.val_main_v14_apply]
    show Cert.ReferenceIdeal.Read.val_main_v11 (F := Ideal) x0 x1 x4 (ix3 j c e) * Cert.ReferenceIdeal.Read.val_main_v13 (F := Ideal) x2 (ix3 j c e) = _
    rw [e11, e13]

/-- THE EMBEDDINGS AGREE on real inputs. -/
theorem emb_eq (h0 : ∀ i, IsReal (x0 i)) (h2 : ∀ i, IsReal (x2 i)) (h4 : ∀ i, IsReal (x4 i)) :
    KTail.emb (convMean x0 x4) x1 x2 = Cert.ReferenceIdeal.Read.val_main_v20 (F := Ideal) x0 x1 x2 x4 := by
  funext i
  obtain ⟨n, e, rfl⟩ : ∃ (n : Fin 50000) (e : Fin 128), i = ix2 n e := ⟨i 0, i 1, eq_ix2 i⟩
  rw [kernel_emb, ref_emb, srcIdx_eq, dstIdx_eq, Ideal.ofBits_zero_f32, Cert.Lib.Four.four_word]
  exact (Law.ereal_law (lands (Cert.ReferenceIdeal.Read.val_main_v16 (F := Ideal) x1) n)
    (fun c j k => x0 (ix3 (row (Cert.ReferenceIdeal.Read.val_main_v10 (F := Ideal) x1) j) c k)) (fun k => x4 (ix2 k e)) (fun j => x2 (ix1 j))
    (fun c j k => h0 _) (fun k => h4 _) (fun j => h2 _)).symm

end Cert.Bridge.Emb

end
-- ==== Proof.LibAbsFinite.lean ====
/- A finiteness test read on the extended reals: the f32 word 0x7F800000 denotes +∞, and an extended real whose absolute
   value (max y (-y)) compares strictly below that word is a real number — it is neither infinity. This is the element
   fact behind a precondition of the form |y| < +∞ at every entry. Nothing here depends on a particular program. -/
import Idealize.ShloMosaic.PureOps.Ideal
import Idealize.ShloMosaic.PureOps.Ideal.Laws
import proofs.«138304_j68032281968990_2_alg».proof.Proof.LibIsReal

noncomputable section

namespace Cert.Lib.AbsFinite

open Idealize.ShloMosaic Cert.Reals

/-- The float word 0x7F800000 denotes +∞. -/
theorem inf_word : Ideal.ofBits .f32 0x7F800000#32 = ⊤ := by simp [Ideal.ofBits, Ideal.ieee]

/-- An extended real whose absolute value compares below the word of +∞ is a real number. -/
theorem isReal_of_abs_lt {y : EReal} (e : Ideal.cmp .olt (max y (-y)) (Ideal.ofBits .f32 0x7F800000#32) = 1#1) : IsReal y := by
  rw [inf_word] at e
  induction y using EReal.rec with
  | bot => simp [Ideal.cmp] at e
  | top => simp [Ideal.cmp] at e
  | coe a => exact ⟨a, rfl⟩

end Cert.Lib.AbsFinite

end
-- ==== Proof.Finite.lean ====
/-
  From the precondition to real-valued inputs.

  The precondition is the conjunction, over the three float inputs, of "every entry x has |x| < +∞": each conjunct is a
  reduction by `and` over all axes of the entrywise comparison of |x| with the word of +∞. If the conjunction is 1
  then each reduction is 1, so each entrywise comparison is 1; on the extended reals |x| is max x (-x), and an extended
  real whose absolute value is strictly below +∞ is neither infinity, that is, it is a real number.
-/
import Idealize.ShloMosaic.PureOps.Ideal
import Idealize.ShloMosaic.PureOps.Ideal.Laws
import Idealize.ShloMosaic.Lib.ReduceAll
import Idealize.ShloMosaic.Lib.ValueIdx
import proofs.«138304_j68032281968990_2_alg».proof.Pre_finite_inputs
import proofs.«138304_j68032281968990_2_alg».proof.Proof.Gen.Pre_finite_inputs
import proofs.«138304_j68032281968990_2_alg».proof.Proof.LibIsReal
import proofs.«138304_j68032281968990_2_alg».proof.Proof.LibAbsFinite

noncomputable section

namespace Cert.Bridge.Finite

open Idealize.ShloMosaic Cert.Pre_finite_inputs Cert.Reals

/-- The shape of a scalar has exactly one index. -/
instance : Subsingleton S_.Idx := ⟨fun a b => funext fun d => d.elim0⟩

/-- One conjunct of the precondition, read back: if the reduction by `and`, over all axes, of the entrywise test
    |x| < +∞ is 1, then every entry of `x` is a real number. -/
theorem reals_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    ∀ i, IsReal (x i) := by
  intro i
  have ei := Host.reduce_andi_all _ _ hr hu j e i
  exact Cert.Lib.AbsFinite.isReal_of_abs_lt ei

/-- Under the precondition every entry of each of the three float inputs is a real number. -/
theorem reals_of_pre (x0 : FVec Ideal S50000x4x128 .f32) (x1 : IVec S2x400000 32) (x2 : FVec Ideal S400000 .f32)
    (x3 : IVec S2048x64 32) (x4 : FVec Ideal S128x128 .f32)
    (h : Cert.Pre_finite_inputs.fn (F := Ideal) x0 x1 x2 x3 x4 = fun _ => 1#1) :
    (∀ i, IsReal (x0 i)) ∧ (∀ i, IsReal (x2 i)) ∧ (∀ i, IsReal (x4 i)) := by
  have h0 := congrFun h ValueIdx.ix0
  dsimp only [Cert.Pre_finite_inputs.fn, andi] at h0
  obtain ⟨h01, h4⟩ := IntOp.andi_eq_one.1 h0
  obtain ⟨h00, h2⟩ := IntOp.andi_eq_one.1 h01
  exact ⟨reals_of_all x0 _ _ _ _ h00, reals_of_all x2 _ _ _ _ h2, reals_of_all x4 _ _ _ _ h4⟩

end Cert.Bridge.Finite

end
-- ==== Proof.lean ====
/-
  The certificate's claims for the graph-convolution kernel.

  The kernel program averages the node features over their channels first, multiplies the average by the weights in one
  region (25 row blocks), and runs the edge gather, the edge-weight scaling, the scatter-add to destination nodes and
  the masked subgraph pooling on [*, 128] arrays; the reference multiplies every channel by the weights, runs the same
  edge operations on [*, 4, 128] arrays and averages over the channels at the end. On real inputs the two node
  embeddings are one array (distributivity of the finite sums involved), and the pooling that follows is the same
  composition of operations in both programs.

  The three frames: the two kernel programs by their frame certificates, the reference by its run with the result
  dropped. The idealization rewrote nothing, so its claim is trivial. The value claim: the kernel program's run is read
  off its frame run (the region's output array, then the host operations after it), the reference's run is its composed
  term, and the two meet at the pooled embedding.
-/
import proofs.«138304_j68032281968990_2_alg».proof.Defs
import proofs.«138304_j68032281968990_2_alg».proof.Proof.Gen.Kernel
import proofs.«138304_j68032281968990_2_alg».proof.Proof.Gen.Kernel.Skeleton
import proofs.«138304_j68032281968990_2_alg».proof.Proof.Gen.Kernel.Launch
import proofs.«138304_j68032281968990_2_alg».proof.Proof.Gen.Kernel.Points
import proofs.«138304_j68032281968990_2_alg».proof.Proof.Gen.Kernel.Frame
import proofs.«138304_j68032281968990_2_alg».proof.Proof.Gen.KernelIdeal
import proofs.«138304_j68032281968990_2_alg».proof.Proof.Gen.KernelIdeal.Skeleton
import proofs.«138304_j68032281968990_2_alg».proof.Proof.Gen.KernelIdeal.Launch
import proofs.«138304_j68032281968990_2_alg».proof.Proof.Gen.KernelIdeal.Points
import proofs.«138304_j68032281968990_2_alg».proof.Proof.Gen.KernelIdeal.Frame
import proofs.«138304_j68032281968990_2_alg».proof.Proof.Gen.ReferenceIdeal
import proofs.«138304_j68032281968990_2_alg».proof.Proof.Gen.Pre_finite_inputs
import proofs.«138304_j68032281968990_2_alg».proof.Proof.Gen.ReferenceIdeal.Run
import proofs.«138304_j68032281968990_2_alg».proof.Proof.Gen.ReferenceIdeal.Read
import proofs.«138304_j68032281968990_2_alg».proof.Proof.KernelTail
import proofs.«138304_j68032281968990_2_alg».proof.Proof.Embedding
import proofs.«138304_j68032281968990_2_alg».proof.Proof.Finite
import Idealize.ShloMosaic.Adequacy
import Idealize.ShloMosaic.Init

noncomputable section

open Idealize.ShloMosaic Idealize.ShloMosaic.TcCoe Idealize.SL.Sem

namespace Cert.Bridge.KRun

open Cert.KernelIdeal Cert.KernelIdeal.Gen Cert.Bridge

/-- The kernel program's run, read: the result buffer ends at the pooled embedding of the argument arrays, and the
    argument arrays end unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v32)
        = KTail.pool (KTail.emb (convMean (m ((c.tc : Thread nD τ).loc main_arg0)) (m ((c.tc : Thread nD τ).loc main_arg4)))
            (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v32 (Pipeline.mem_restRefs_of main_v32 (by decide) (by decide))).trans (KTail.tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c)))⟩)
    (run_main m ρ)

end Cert.Bridge.KRun

namespace Cert.Proof

open Cert.Bridge

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the pooled embedding: the kernel program's by its run read above, the reference's composed
    term by the agreement of the two embeddings on the real inputs the precondition gives. -/
theorem algebraic : Cert.algebraic_KernelIdeal_ReferenceIdeal := by
  intro m ρ m' ρ' hpre hagree
  refine ⟨_, KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h4⟩ := Finite.reals_of_pre _ _ _ _ _ (hpre c)
  rw [(hagree c).1, (hagree c).2.1, (hagree c).2.2.1, (hagree c).2.2.2.1, (hagree c).2.2.2.2]
  rw [Cert.ReferenceIdeal.Read.val_main_v35_eq]
  rw [Emb.emb_eq _ _ _ _ h0 h2 h4]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
